-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S2000x128 : Shape := ⟨2, ![2000, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S2000x128 : S_.BroadcastsInDim S2000x128 (![] : Fin 0 → Fin S2000x128.rank)
  reducesTo_S2000x128_S_d0_1 : S2000x128.ReducesTo [0, 1] S_

variable [Facts]

def fn {F : FTy → Type} [FloatOps F] (main_arg0 : FVec F S32768x128 .f32) (main_arg1 : FVec F S2000x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S2000x128 .f32 := Host.absf main_arg1
  let main_cst_0 : FVec F S_ .f32 := constant S_ .f32 0x7F800000#32
  let main_v5 : FVec F S2000x128 .f32 := broadcastInDim S2000x128 ![] bcast_S_S2000x128 main_cst_0
  let main_v6 : IVec S2000x128 1 := cmpf .olt main_v4 main_v5
  let main_c_1 : IVec S_ 1 := constantI S_ 1 1#1
  let main_v7 : IVec S_ 1 := (fun x v => Host.reduce IntOp.andi x v reducesTo_S2000x128_S_d0_1 h_S_) main_v6 main_c_1
  let main_v8 : IVec S_ 1 := andi main_v3 main_v7
  main_v8
-- ==== Kernel.lean ====
abbrev S32768x128 : Shape := ⟨2, ![32768, 128]⟩
abbrev S2000x128 : Shape := ⟨2, ![2000, 128]⟩
abbrev S32768x2000 : Shape := ⟨2, ![32768, 2000]⟩
abbrev S512x128 : Shape := ⟨2, ![512, 128]⟩
abbrev S512x2000 : Shape := ⟨2, ![512, 2000]⟩
abbrev S512 : Shape := ⟨1, ![512]⟩
abbrev S512x1 : Shape := ⟨2, ![512, 1]⟩
abbrev S2000 : Shape := ⟨1, ![2000]⟩
abbrev S2000x1 : Shape := ⟨2, ![2000, 1]⟩
abbrev S128x2000 : Shape := ⟨2, ![128, 2000]⟩

abbrev nBuf : Space → Nat
  | .hbm => 4
  | .vmem => 7
  | .smem => 0
  | _ => 0

abbrev bufTy : (tb : Table) → Fin (tcTables nBuf tb) → BufTy
  | .hbm, ⟨0, _⟩ => ⟨S32768x128, .f32⟩
  | .hbm, ⟨1, _⟩ => ⟨S2000x128, .f32⟩
  | .hbm, ⟨2, _⟩ => ⟨S32768x128, .f32⟩
  | .hbm, ⟨3, _⟩ => ⟨S32768x2000, .f32⟩
  | .local _ .vmem, ⟨0, _⟩ => ⟨S512x128, .f32⟩
  | .local _ .vmem, ⟨1, _⟩ => ⟨S512x128, .f32⟩
  | .local _ .vmem, ⟨2, _⟩ => ⟨S2000x128, .f32⟩
  | .local _ .vmem, ⟨3, _⟩ => ⟨S512x128, .f32⟩
  | .local _ .vmem, ⟨4, _⟩ => ⟨S512x128, .f32⟩
  | .local _ .vmem, ⟨5, _⟩ => ⟨S512x2000, .f32⟩
  | .local _ .vmem, ⟨6, _⟩ => ⟨S512x2000, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  reduces_S512x128_S512 : S512x128.Reduces [1] S512
  shapeCasts_S512_S512x1 : S512.ShapeCasts S512x1
  broadcasts_S512x1_S512x128 : S512x1.Broadcasts S512x128
  reduces_S2000x128_S2000 : S2000x128.Reduces [1] S2000
  shapeCasts_S2000_S2000x1 : S2000.ShapeCasts S2000x1
  broadcasts_S2000x1_S2000x128 : S2000x1.Broadcasts S2000x128
  bitsLt_bf16_f32 : FTy.bits .bf16 < FTy.bits .f32
  transposes_S2000x128_p1_0_S128x2000 : S2000x128.Transposes [1, 0] S128x2000
  reduces_S512x2000_S512 : S512x2000.Reduces [1] S512
  broadcasts_S512x1_S512x2000 : S512x1.Broadcasts S512x2000
  inb_S512x2000_S512x2000_0_0 : ∀ a, (![0, 0] : Fin 2 → Nat) a + S512x2000.size a ≤ S512x2000.size a
  h_S512x2000 : 0 < S512x2000.numel
  dot_S512x128_S128x2000_S512x2000_1_0_0_1_n_n_wf : DotDims.WF S512x128 S128x2000 S512x2000 [1] [0] [0] [1] [] []
  dot_S512x2000_S2000x128_S512x128_1_0_0_1_n_n_wf : DotDims.WF S512x2000 S2000x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x128.size a
  hwx0_0 : ∀ i : grid0.Coords, EltTy.bits .f32 = 32 ∨ (Rect.block (s := S32768x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S2000x128.size a
  hwx0_1 : ∀ i : grid0.Coords, EltTy.bits .f32 = 32 ∨ (Rect.block (s := S2000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S32768x128.size a
  hwx0_2 : ∀ i : grid0.Coords, EltTy.bits .f32 = 32 ∨ (Rect.block (s := S32768x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2000.size a ≤ S32768x2000.size a
  hwx0_3 : ∀ i : grid0.Coords, EltTy.bits .f32 = 32 ∨ (Rect.block (s := S32768x2000) S512x2000.size (cc0_transform_3 i) (hinb0_3 i)).WholeWords (EltTy.packing .f32)

variable [Facts₀]

def dot_S512x128_S128x2000_S512x2000_1_0_0_1_n_n : DotDims S512x128 S128x2000 S512x2000 where
  lhsContracting := [1]
  rhsContracting := [0]
  lhsNonContracting := [0]
  rhsNonContracting := [1]
  lhsBatch := []
  rhsBatch := []
  wf := dot_S512x128_S128x2000_S512x2000_1_0_0_1_n_n_wf
def dot_S512x2000_S2000x128_S512x128_1_0_0_1_n_n : DotDims S512x2000 S2000x128 S512x128 where
  lhsContracting := [1]
  rhsContracting := [0]
  lhsNonContracting := [0]
  rhsNonContracting := [1]
  lhsBatch := []
  rhsBatch := []
  wf := dot_S512x2000_S2000x128_S512x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x2000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x128 : Shape := ⟨2, ![32768, 128]⟩
abbrev S2000x128 : Shape := ⟨2, ![2000, 128]⟩
abbrev S_ : Shape := ⟨0, ![]⟩
abbrev S32768 : Shape := ⟨1, ![32768]⟩
abbrev S32768x1 : Shape := ⟨2, ![32768, 1]⟩
abbrev S2000 : Shape := ⟨1, ![2000]⟩
abbrev S2000x1 : Shape := ⟨2, ![2000, 1]⟩
abbrev S32768x2000 : Shape := ⟨2, ![32768, 2000]⟩

abbrev nBuf : Space → Nat
  | .hbm => 59
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S2000x128, .f32⟩
  | .hbm, ⟨2, _⟩ => ⟨S32768x128, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S32768x128, .f32⟩
  | .hbm, ⟨11, _⟩ => ⟨S32768x128, .f32⟩
  | .hbm, ⟨12, _⟩ => ⟨S2000x128, .f32⟩
  | .hbm, ⟨13, _⟩ => ⟨S_, .f32⟩
  | .hbm, ⟨14, _⟩ => ⟨S2000, .f32⟩
  | .hbm, ⟨15, _⟩ => ⟨S2000x1, .f32⟩
  | .hbm, ⟨16, _⟩ => ⟨S2000x1, .f32⟩
  | .hbm, ⟨17, _⟩ => ⟨S_, .f32⟩
  | .hbm, ⟨18, _⟩ => ⟨S2000x1, .f32⟩
  | .hbm, ⟨19, _⟩ => ⟨S2000x1, .f32⟩
  | .hbm, ⟨20, _⟩ => ⟨S2000x128, .f32⟩
  | .hbm, ⟨21, _⟩ => ⟨S2000x128, .f32⟩
  | .hbm, ⟨22, _⟩ => ⟨S32768x2000, .f32⟩
  | .hbm, ⟨23, _⟩ => ⟨S_, .f32⟩
  | .hbm, ⟨24, _⟩ => ⟨S32768, .f32⟩
  | .hbm, ⟨25, _⟩ => ⟨S_, .f32⟩
  | .hbm, ⟨26, _⟩ => ⟨S32768, .f32⟩
  | .hbm, ⟨27, _⟩ => ⟨S32768, .f32⟩
  | .hbm, ⟨28, _⟩ => ⟨S32768x1, .f32⟩
  | .hbm, ⟨29, _⟩ => ⟨S32768x2000, .f32⟩
  | .hbm, ⟨30, _⟩ => ⟨S32768x2000, .f32⟩
  | .hbm, ⟨31, _⟩ => ⟨S32768x2000, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S32768x2000, .f32⟩
  | .hbm, ⟨36, _⟩ => ⟨S32768x2000, .f32⟩
  | .hbm, ⟨37, _⟩ => ⟨S_, .f32⟩
  | .hbm, ⟨38, _⟩ => ⟨S32768x2000, .f32⟩
  | .hbm, ⟨39, _⟩ => ⟨S32768x2000, .f32⟩
  | .hbm, ⟨40, _⟩ => ⟨S_, .f32⟩
  | .hbm, ⟨41, _⟩ => ⟨S32768x2000, .f32⟩
  | .hbm, ⟨42, _⟩ => ⟨S32768x2000, .f32⟩
  | .hbm, ⟨43, _⟩ => ⟨S32768x2000, .f32⟩
  | .hbm, ⟨44, _⟩ => ⟨S32768x2000, .f32⟩
  | .hbm, ⟨45, _⟩ => ⟨S_, .f32⟩
  | .hbm, ⟨46, _⟩ => ⟨S32768x2000, .f32⟩
  | .hbm, ⟨47, _⟩ => ⟨S32768x2000, .f32⟩
  | .hbm, ⟨48, _⟩ => ⟨S32768x2000, .f32⟩
  | .hbm, ⟨49, _⟩ => ⟨S32768x2000, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x2000, .f32⟩
  | .hbm, ⟨57, _⟩ => ⟨S32768x2000, .f32⟩
  | .hbm, ⟨58, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  reducesTo_S32768x128_S32768_d1 : S32768x128.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x128_0_1 : S32768x1.BroadcastsInDim S32768x128 (![0, 1] : Fin 2 → Fin S32768x128.rank)
  reducesTo_S2000x128_S2000_d1 : S2000x128.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x128_0_1 : S2000x1.BroadcastsInDim S2000x128 (![0, 1] : Fin 2 → Fin S2000x128.rank)
  reducesTo_S32768x2000_S32768_d1 : S32768x2000.ReducesTo [1] S32768
  bcast_S_S32768 : S_.BroadcastsInDim S32768 (![] : Fin 0 → Fin S32768.rank)
  bcast_S32768x1_S32768x2000_0_1 : S32768x1.BroadcastsInDim S32768x2000 (![0, 1] : Fin 2 → Fin S32768x2000.rank)
  bcast_S_S32768x2000 : S_.BroadcastsInDim S32768x2000 (![] : Fin 0 → Fin S32768x2000.rank)
  dot_S32768x128_S2000x128_S32768x2000_1_1_0_0_n_n_wf : DotDims.WF S32768x128 S2000x128 S32768x2000 [1] [1] [0] [0] [] []
  dot_S32768x2000_S2000x128_S32768x128_1_0_0_1_n_n_wf : DotDims.WF S32768x2000 S2000x128 S32768x128 [1] [0] [0] [1] [] []

variable [Facts₀]

def dot_S32768x128_S2000x128_S32768x2000_1_1_0_0_n_n : DotDims S32768x128 S2000x128 S32768x2000 where
  lhsContracting := [1]
  rhsContracting := [1]
  lhsNonContracting := [0]
  rhsNonContracting := [0]
  lhsBatch := []
  rhsBatch := []
  wf := dot_S32768x128_S2000x128_S32768x2000_1_1_0_0_n_n_wf
def dot_S32768x2000_S2000x128_S32768x128_1_0_0_1_n_n : DotDims S32768x2000 S2000x128 S32768x128 where
  lhsContracting := [1]
  rhsContracting := [0]
  lhsNonContracting := [0]
  rhsNonContracting := [1]
  lhsBatch := []
  rhsBatch := []
  wf := dot_S32768x2000_S2000x128_S32768x128_1_0_0_1_n_n_wf

class Facts : Prop extends Facts₀ where

variable [Facts]
-- ==== Proof.RowSpec.lean ====
/-
  Reading a memory of 2000 rows of width 128 with one query row of width 128, over the extended reals.

  A row is scaled to unit Euclidean length (divided by the larger of its norm and a small floor).  The score of the
  query against memory row j is the inner product of the two unit rows.  The scores are turned into weights by a
  softmax (shifted by the row's maximum), each weight a is then shrunk to max(a - t, 0) * a / (|a - t| + floor), and
  the shrunk weights are divided by the larger of their absolute sum and the floor.  The value read is the weighted
  sum of the (unscaled) memory rows.  Every quantity below is a function of ONE query row and the memory, so the
  whole array of results is this function applied row by row, however the query rows are grouped.
-/
import Idealize.ShloMosaic.PureOps.Ideal

noncomputable section

open scoped BigOperators

namespace Cert.MemoryRead

open Idealize.ShloMosaic

/-- The floor under every divisor (the f32 nearest 1e-12). -/
abbrev floor : EReal := Ideal.ofBits .f32 0x2B8CBCCC#32
/-- The shrink threshold (the f32 nearest 5e-4). -/
abbrev threshold : EReal := Ideal.ofBits .f32 0x3A03126F#32
/-- The f32 zero word. -/
abbrev zeroWord : EReal := Ideal.ofBits .f32 0x00000000#32
/-- The f32 word of minus infinity, from which a row's maximum is folded. -/
abbrev negInf : EReal := Ideal.ofBits .f32 0xFF800000#32

/-- Entry d of a row divided by max(norm of the row, floor). -/
def unitRow (v : Fin 128 → EReal) (d : Fin 128) : EReal :=
  Ideal.div (v d) (max (Ideal.sqrt (∑ k : Fin 128, v k * v k)) floor)

/-- The inner product of the unit query row with the unit memory row j. -/
def scores (q : Fin 128 → EReal) (mem : Fin 2000 → Fin 128 → EReal) (j : Fin 2000) : EReal :=
  ∑ k : Fin 128, unitRow q k * unitRow (mem j) k

/-- The maximum of a row of scores. -/
def rowMax (s : Fin 2000 → EReal) : EReal := (Finset.univ : Finset (Fin 2000)).fold max negInf s

/-- The softmax of a row of scores, shifted by the row's maximum. -/
def softmax (s : Fin 2000 → EReal) (j : Fin 2000) : EReal :=
  Ideal.div (Ideal.exp (s j - rowMax s)) (∑ k : Fin 2000, Ideal.exp (s k - rowMax s))

/-- The shrink of one weight: max(a - t, 0) * a / (|a - t| + floor). -/
def shrink (a : EReal) : EReal :=
  Ideal.div (max (a - threshold) zeroWord * a) (max (a - threshold) (-(a - threshold)) + floor)

/-- A row of weights divided by max(sum of their absolute values, floor). -/
def l1Unit (w : Fin 2000 → EReal) (j : Fin 2000) : EReal :=
  Ideal.div (w j) (max (∑ k : Fin 2000, max (w k) (-(w k))) floor)

/-- The addressing weights of one query row over the memory rows. -/
def weights (q : Fin 128 → EReal) (mem : Fin 2000 → Fin 128 → EReal) (j : Fin 2000) : EReal :=
  l1Unit (fun k => shrink (softmax (scores q mem) k)) j

/-- The value read: the weighted sum of the memory rows. -/
def readout (q : Fin 128 → EReal) (mem : Fin 2000 → Fin 128 → EReal) (d : Fin 128) : EReal :=
  ∑ k : Fin 2000, weights q mem k * mem k d

end Cert.MemoryRead

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.LibRows.lean ====
/-
  Rows of a matrix and their flat numbering, read at an index.

  A reshape keeps every element's row-major position. So a length-(a*b) array viewed as [a, b] holds at (p, k) the
  array's entry p*b + k; an [a, b, c] array viewed as [a*b, c] holds at (p*b + k, d) the array's entry (p, k, d); a
  column [a, 1] viewed as [a] holds at i the column's entry (i, 0). And, at the extended reals, the sum of an [a, b]
  vector along its second axis (a lane reduction into [a], from the additive neutral word) is, at row r, the plain
  sum over k of the entries (r, k).
-/
import Idealize.ShloMosaic.Lib.Pipeline.Value
import Idealize.ShloMosaic.Lib.ValueIdx
import Idealize.ShloMosaic.PureOps.Ideal.Laws

noncomputable section

namespace Cert.LibRows

open Idealize.ShloMosaic Idealize.ShloMosaic.ValueIdx

variable {α : Type}

/-- A length-n array cast to [a, b] reads, at (p, k), the operand at the entry numbered p*b + k. -/
theorem shapeCast_n_ab_apply {n a b : ℕ} (x : (⟨1, ![n]⟩ : Shape).Idx → α) (h : (⟨1, ![n]⟩ : Shape).ShapeCasts ⟨2, ![a, b]⟩)
    (p : Fin a) (k : Fin b) (r : Fin n) (hr : r.val = p.val * b + k.val) :
    shapeCast ⟨2, ![a, b]⟩ x h (ix2 p k) = x (ix1 r) :=
  shapeCast_apply x h _ _ (by
    rw [Shape.rowMajor_val_two, Shape.rowMajor_val_one]
    exact hr)

/-- An [a, b, c] array cast to [n, c] reads, at (r, d) with r = p*b + k, the operand at (p, k, d). -/
theorem shapeCast_abc_nc_apply {n a b c : ℕ} (x : (⟨3, ![a, b, c]⟩ : Shape).Idx → α)
    (h : (⟨3, ![a, b, c]⟩ : Shape).ShapeCasts ⟨2, ![n, c]⟩)
    (p : Fin a) (k : Fin b) (d : Fin c) (r : Fin n) (hr : r.val = p.val * b + k.val) :
    shapeCast ⟨2, ![n, c]⟩ x h (ix2 r d) = x (ix3 p k d) :=
  shapeCast_apply x h _ _ (by
    rw [Shape.rowMajor_val_two, Shape.rowMajor_val_three]
    show (p.val * b + k.val) * c + d.val = r.val * c + d.val
    rw [hr])

/-- A column [a, 1] cast to [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- At the extended reals the sum of an [a, b] f32 vector along axis 1, from the additive neutral word, is at row r the
    sum over k of the entries (r, k). -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ k : Fin b, v (ix2 r k) := by
  refine (Ideal.multiReduction_add_single v acc h hφ hacc (ix1 r)).trans ?_
  refine Finset.sum_congr rfl fun k _ => congrArg v ?_
  funext ax
  refine Fin.ext ?_
  match ax with
  | ⟨0, _⟩ => rfl
  | ⟨1, _⟩ => rfl

end Cert.LibRows

end
-- ==== Proof.LibRowReduce.lean ====
/-
  Rows of a matrix reduced along their entries, and a matrix read through its transpose.

  Over the extended reals a host sum of an [a, b] array along its second axis is, at row r, the initial value plus
  the plain sum over k of the entries (r, k).  A maximum along the second axis, whether taken by a lane reduction or
  by the host, is at row r the fold of max from the initial value over the entries (r, k), in any order.  The word
  of minus infinity is the least extended real, so taking a maximum with it changes nothing.  The transpose of a
  [b, a] matrix holds at (k, j) the matrix's entry (j, k).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ}

/-- The index of row r with the second coordinate k put back is (r, k). -/
theorem lift_row (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax
  refine Fin.ext ?_
  match ax with
  | ⟨0, _⟩ => rfl
  | ⟨1, _⟩ => rfl

/-- The host's sum of an [a, b] array along axis 1, at row r: the initial value plus the sum over k of the
    entries (r, k). -/
theorem hostRowSum_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  unfold Host.reduceAdd
  rw [Ideal.hostReduceAdd_def, Ideal.hostReduceAdd_single h' h]
  refine congrArg (_ + ·) (Finset.sum_congr rfl fun k _ => congrArg x ?_)
  exact lift_row h r k

/-- A lane maximum of an [a, b] f32 vector along axis 1, at row r: the fold of max from the accumulator's value over the
    entries (r, k). -/
theorem rowMax_apply (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) := by
  refine (Ideal.multiReduction_maximumf_single v acc h hφ hacc (ix1 r)).trans ?_
  refine congrArg (fun f => Finset.fold max (Ideal.ofBits .f32 acc) f (Finset.univ : Finset (Fin b))) ?_
  funext k
  exact congrArg v (lift_row h r k)

/-- The host's maximum of an [a, b] array along axis 1, at row r: the fold of max from the initial value over the
    entries (r, k). -/
theorem hostRowMax_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single (FloatOps.maximumf (F := Ideal) (φ := .f32)) x init h' h hu]
  refine congrArg (fun f => Finset.fold max (init (Shape.Idx.first hu)) f (Finset.univ : Finset (Fin b))) ?_
  funext k
  exact congrArg x (lift_row h r k)

/-- The f32 word of minus infinity is the least extended real: a maximum with it is the other operand. -/
theorem max_negInf_left (y : EReal) : max (Ideal.ofBits .f32 0xFF800000#32) y = y := by
  simp [Ideal.ofBits, Ideal.ieee]

/-- The transpose of a [b, a] matrix reads, at (k, j), the matrix's entry (j, k). -/
theorem transpose_swap_apply {α : Type} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) := by
  refine transpose_apply [1, 0] x h (ix2 k j) (ix2 j k) fun ax => ?_
  match ax with
  | ⟨0, _⟩ => rfl
  | ⟨1, _⟩ => rfl

end Cert.LibRowReduce

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.KernelRows.lean ====
/-
  What the kernel body computes from one block of 512 query rows and the whole memory, row by row.

  The body's arithmetic is cut into the stages of the memory read: rows scaled to unit length, the scores (a matrix
  product of the unit query rows with the transposed unit memory rows), the softmax along each row, the shrink of
  every weight, the division of each row by its absolute sum, and the product of the weights with the memory.  Each
  stage, read at row p, depends on row p of its operand only, and is the corresponding function of
  `Cert.MemoryRead` applied to that row.  A change of float format is the identity over the extended reals, so the
  narrowed operands of the two matrix products are the operands themselves.
-/
import proofs.«132299_j55894704390271_1_alg».proof.Proof.Gen.KernelIdeal.Skeleton
import proofs.«132299_j55894704390271_1_alg».proof.Proof.RowSpec
import proofs.«132299_j55894704390271_1_alg».proof.Proof.LibLayout
import proofs.«132299_j55894704390271_1_alg».proof.Proof.LibRows
import proofs.«132299_j55894704390271_1_alg».proof.Proof.LibRowReduce
import proofs.«132299_j55894704390271_1_alg».proof.Proof.LibDense
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.MemoryRead

/-! ## Rows scaled to unit length -/

/-- Every row of an [a, 128] vector divided by max(its norm, floor). -/
def unitRows {a : ℕ} (v : FVec Ideal ⟨2, ![a, 128]⟩ .f32) (hr : (⟨2, ![a, 128]⟩ : Shape).Reduces [1] ⟨1, ![a]⟩)
    (hc : (⟨1, ![a]⟩ : Shape).ShapeCasts ⟨2, ![a, 1]⟩) (hb : (⟨2, ![a, 1]⟩ : Shape).Broadcasts ⟨2, ![a, 128]⟩) :
    FVec Ideal ⟨2, ![a, 128]⟩ .f32 :=
  divf v (broadcastTo ⟨2, ![a, 128]⟩ (maximumf (sqrt (shapeCast ⟨2, ![a, 1]⟩
    (multiReduction .add [1] ⟨1, ![a]⟩ (mulf v v) 0x00000000#32 hr (.inl rfl) rfl) hc))
    (broadcast ⟨2, ![a, 1]⟩ (Scalar.ofBits .f32 0x2B8CBCCC#32))) hb)

/-- Row p of the scaled vector is the unit row of row p. -/
theorem unitRows_apply {a : ℕ} (v : FVec Ideal ⟨2, ![a, 128]⟩ .f32) (hr : (⟨2, ![a, 128]⟩ : Shape).Reduces [1] ⟨1, ![a]⟩)
    (hc : (⟨1, ![a]⟩ : Shape).ShapeCasts ⟨2, ![a, 1]⟩) (hb : (⟨2, ![a, 1]⟩ : Shape).Broadcasts ⟨2, ![a, 128]⟩)
    (p : Fin a) (d : Fin 128) : unitRows v hr hc hb (ix2 p d) = unitRow (fun k => v (ix2 p k)) d := by
  show Ideal.div (v (ix2 p d)) (broadcastTo ⟨2, ![a, 128]⟩ _ hb (ix2 p d))
    = Ideal.div (v (ix2 p d)) (max (Ideal.sqrt (∑ k : Fin 128, v (ix2 p k) * v (ix2 p k))) floor)
  refine congrArg (Ideal.div (v (ix2 p d))) ?_
  refine (LibLayout.broadcastTo_a1_ab_apply _ hb p d).trans ?_
  show max (Ideal.sqrt (shapeCast ⟨2, ![a, 1]⟩ _ hc (ix2 p (0 : Fin 1)))) floor = _
  refine congrArg (fun t => max (Ideal.sqrt t) floor) ?_
  refine (LibLayout.shapeCast_a_a1_apply _ hc p 0).trans ?_
  exact LibRows.rowSum_apply (mulf v v) _ hr _ _ p

/-! ## The scores: unit query rows times the transposed unit memory rows -/

local notation "D₁" => dot_S512x128_S128x2000_S512x2000_1_0_0_1_n_n
local notation "D₂" => dot_S512x2000_S2000x128_S512x128_1_0_0_1_n_n

theorem D₁_lhs0 (i : S512x2000.Idx) (q : (D₁).contr.Idx) : ((D₁).lhsIdx i q 0).val = (i 0).val := by
  unfold DotDims.lhsIdx
  rw [dif_neg (show ¬(0 : Fin S512x128.rank) ∈ (D₁).lhsBatch by decide), dif_pos (show (0 : Fin S512x128.rank) ∈ (D₁).lhsNonContracting by decide)]
  rfl
theorem D₁_lhs1 (i : S512x2000.Idx) (q : (D₁).contr.Idx) : ((D₁).lhsIdx i q 1).val = (q ⟨0, by decide⟩).val :=
  (D₁).lhsIdx_val_of_single rfl i q
theorem D₁_rhs0 (i : S512x2000.Idx) (q : (D₁).contr.Idx) : ((D₁).rhsIdx i q 0).val = (q ⟨0, by decide⟩).val :=
  (D₁).rhsIdx_val_of_single rfl i q
theorem D₁_rhs1 (i : S512x2000.Idx) (q : (D₁).contr.Idx) : ((D₁).rhsIdx i q 1).val = (i 1).val := by
  unfold DotDims.rhsIdx
  rw [dif_neg (show ¬(1 : Fin S128x2000.rank) ∈ (D₁).rhsBatch by decide), dif_pos (show (1 : Fin S128x2000.rank) ∈ (D₁).rhsNonContracting by decide)]
  rfl

theorem D₂_lhs0 (i : S512x128.Idx) (q : (D₂).contr.Idx) : ((D₂).lhsIdx i q 0).val = (i 0).val := by
  unfold DotDims.lhsIdx
  rw [dif_neg (show ¬(0 : Fin S512x2000.rank) ∈ (D₂).lhsBatch by decide), dif_pos (show (0 : Fin S512x2000.rank) ∈ (D₂).lhsNonContracting by decide)]
  rfl
theorem D₂_lhs1 (i : S512x128.Idx) (q : (D₂).contr.Idx) : ((D₂).lhsIdx i q 1).val = (q ⟨0, by decide⟩).val :=
  (D₂).lhsIdx_val_of_single rfl i q
theorem D₂_rhs0 (i : S512x128.Idx) (q : (D₂).contr.Idx) : ((D₂).rhsIdx i q 0).val = (q ⟨0, by decide⟩).val :=
  (D₂).rhsIdx_val_of_single rfl i q
theorem D₂_rhs1 (i : S512x128.Idx) (q : (D₂).contr.Idx) : ((D₂).rhsIdx i q 1).val = (i 1).val := by
  unfold DotDims.rhsIdx
  rw [dif_neg (show ¬(1 : Fin S2000x128.rank) ∈ (D₂).rhsBatch by decide), dif_pos (show (1 : Fin S2000x128.rank) ∈ (D₂).rhsNonContracting by decide)]
  rfl

/-- The block of scores of 512 scaled query rows against 2000 scaled memory rows. -/
def scoreBlock (qn : FVec Ideal S512x128 .f32) (mn : FVec Ideal S2000x128 .f32) : FVec Ideal S512x2000 .f32 :=
  matmul D₁ none (truncf .bf16 qn bitsLt_bf16_f32)
    (transpose S128x2000 [1, 0] (truncf .bf16 mn bitsLt_bf16_f32) transposes_S2000x128_p1_0_S128x2000)
    (constant S512x2000 .f32 0x00000000#32)

/-- Entry (p, j) of the scores is the inner product of query row p with memory row j. -/
theorem scoreBlock_apply (qn : FVec Ideal S512x128 .f32) (mn : FVec Ideal S2000x128 .f32) (p : Fin 512) (j : Fin 2000) :
    scoreBlock qn mn (ix2 p j) = ∑ k : Fin 128, qn (ix2 p k) * mn (ix2 j k) := by
  unfold scoreBlock
  refine (LibDense.matmul_zero_apply D₁ rfl rfl D₁_lhs0 D₁_lhs1 D₁_rhs0 D₁_rhs1 none _ _ p j).trans ?_
  refine Finset.sum_congr rfl fun k _ => ?_
  refine congrArg (qn (ix2 p k) * ·) ?_
  exact LibRowReduce.transpose_swap_apply (truncf .bf16 mn bitsLt_bf16_f32) transposes_S2000x128_p1_0_S128x2000 k j

/-! ## Columns of row maxima and row sums, and a column spread over the 2000 entries of each row -/

/-- The column of row maxima of a [512, 2000] vector. -/
def maxCol (s : FVec Ideal S512x2000 .f32) : FVec Ideal S512x1 .f32 :=
  shapeCast S512x1 (multiReduction .maximumf [1] S512 s 0xFF800000#32 reduces_S512x2000_S512 (.inl rfl) rfl) shapeCasts_S512_S512x1

/-- The column of row sums of a [512, 2000] vector. -/
def sumCol (s : FVec Ideal S512x2000 .f32) : FVec Ideal S512x1 .f32 :=
  shapeCast S512x1 (multiReduction .add [1] S512 s 0x00000000#32 reduces_S512x2000_S512 (.inl rfl) rfl) shapeCasts_S512_S512x1

/-- A column repeated along each row. -/
def spread (c : FVec Ideal S512x1 .f32) : FVec Ideal S512x2000 .f32 :=
  broadcastTo S512x2000 c broadcasts_S512x1_S512x2000

theorem maxCol_apply (s : FVec Ideal S512x2000 .f32) (p : Fin 512) (u : Fin 1) :
    maxCol s (ix2 p u) = rowMax (fun k => s (ix2 p k)) := by
  unfold maxCol
  refine (LibLayout.shapeCast_a_a1_apply _ shapeCasts_S512_S512x1 p u).trans ?_
  exact LibRowReduce.rowMax_apply s _ reduces_S512x2000_S512 _ _ p

theorem sumCol_apply (s : FVec Ideal S512x2000 .f32) (p : Fin 512) (u : Fin 1) :
    sumCol s (ix2 p u) = ∑ k : Fin 2000, s (ix2 p k) := by
  unfold sumCol
  refine (LibLayout.shapeCast_a_a1_apply _ shapeCasts_S512_S512x1 p u).trans ?_
  exact LibRows.rowSum_apply s _ reduces_S512x2000_S512 _ _ p

theorem spread_apply (c : FVec Ideal S512x1 .f32) (p : Fin 512) (j : Fin 2000) :
    spread c (ix2 p j) = c (ix2 p (0 : Fin 1)) :=
  LibLayout.broadcastTo_a1_ab_apply c broadcasts_S512x1_S512x2000 p j

/-! ## The softmax along each row -/

/-- The exponential of each score less its row's maximum. -/
def shiftExp (s : FVec Ideal S512x2000 .f32) : FVec Ideal S512x2000 .f32 := exp (subf s (spread (maxCol s)))

theorem shiftExp_apply (s : FVec Ideal S512x2000 .f32) (p : Fin 512) (j : Fin 2000) :
    shiftExp s (ix2 p j) = Ideal.exp (s (ix2 p j) - rowMax (fun k => s (ix2 p k))) := by
  show Ideal.exp (s (ix2 p j) - spread (maxCol s) (ix2 p j)) = _
  rw [spread_apply, maxCol_apply]

/-- The softmax of each row of a block of scores. -/
def softmaxBlock (s : FVec Ideal S512x2000 .f32) : FVec Ideal S512x2000 .f32 :=
  divf (shiftExp s) (spread (sumCol (shiftExp s)))

theorem softmaxBlock_apply (s : FVec Ideal S512x2000 .f32) (p : Fin 512) (j : Fin 2000) :
    softmaxBlock s (ix2 p j) = softmax (fun k => s (ix2 p k)) j := by
  show Ideal.div (shiftExp s (ix2 p j)) (spread (sumCol (shiftExp s)) (ix2 p j)) = _
  rw [spread_apply, sumCol_apply]
  simp only [shiftExp_apply]
  rfl

/-! ## The shrink of every weight, and each row divided by its absolute sum -/

/-- Every weight a replaced by max(a - t, 0) * a / (|a - t| + floor). -/
def shrinkBlock (a : FVec Ideal S512x2000 .f32) : FVec Ideal S512x2000 .f32 :=
  divf (mulf (maximumf (subf a (broadcast S512x2000 (Scalar.ofBits .f32 0x3A03126F#32)))
      (broadcast S512x2000 (Scalar.ofBits .f32 0x00000000#32))) a)
    (addf (absf (subf a (broadcast S512x2000 (Scalar.ofBits .f32 0x3A03126F#32))))
      (broadcast S512x2000 (Scalar.ofBits .f32 0x2B8CBCCC#32)))

theorem shrinkBlock_apply (a : FVec Ideal S512x2000 .f32) (i : S512x2000.Idx) : shrinkBlock a i = shrink (a i) := rfl

/-- Every row divided by max(the sum of its absolute values, c). -/
def l1Block (w : FVec Ideal S512x2000 .f32) (c : Ideal .f32) : FVec Ideal S512x2000 .f32 :=
  divf w (spread (maximumf (sumCol (absf w)) (broadcast S512x1 c)))

theorem l1Block_apply (w : FVec Ideal S512x2000 .f32) (p : Fin 512) (j : Fin 2000) :
    l1Block w floor (ix2 p j) = l1Unit (fun k => w (ix2 p k)) j := by
  show Ideal.div (w (ix2 p j)) (spread (maximumf (sumCol (absf w)) (broadcast S512x1 floor)) (ix2 p j)) = _
  rw [spread_apply]
  show Ideal.div (w (ix2 p j)) (max (sumCol (absf w) (ix2 p (0 : Fin 1))) floor) = _
  rw [sumCol_apply]
  rfl

/-! ## The block of addressing weights and the block of values read -/

/-- The weights of 512 query rows over the memory rows. -/
def weightsBlock (x0 : Vec Ideal S512x128 .f32) (x1 : Vec Ideal S2000x128 .f32) : FVec Ideal S512x2000 .f32 :=
  l1Block (shrinkBlock (softmaxBlock (scoreBlock
    (unitRows x0 reduces_S512x128_S512 shapeCasts_S512_S512x1 broadcasts_S512x1_S512x128)
    (unitRows x1 reduces_S2000x128_S2000 shapeCasts_S2000_S2000x1 broadcasts_S2000x1_S2000x128)))) floor

/-- Row p of the block of weights is the weights of query row p. -/
theorem weightsBlock_apply (x0 : Vec Ideal S512x128 .f32) (x1 : Vec Ideal S2000x128 .f32) (p : Fin 512) (j : Fin 2000) :
    weightsBlock x0 x1 (ix2 p j) = weights (fun d => x0 (ix2 p d)) (fun r d => x1 (ix2 r d)) j := by
  unfold weightsBlock
  rw [l1Block_apply]
  simp only [shrinkBlock_apply, softmaxBlock_apply, scoreBlock_apply, unitRows_apply]
  rfl

/-- The weights times the memory. -/
def readBlock (w : FVec Ideal S512x2000 .f32) (x1 : Vec Ideal S2000x128 .f32) : FVec Ideal S512x128 .f32 :=
  matmul D₂ none (truncf .bf16 w bitsLt_bf16_f32) (truncf .bf16 x1 bitsLt_bf16_f32) (constant S512x128 .f32 0x00000000#32)

theorem readBlock_apply (w : FVec Ideal S512x2000 .f32) (x1 : Vec Ideal S2000x128 .f32) (p : Fin 512) (d : Fin 128) :
    readBlock w x1 (ix2 p d) = ∑ k : Fin 2000, w (ix2 p k) * x1 (ix2 k d) := by
  unfold readBlock
  exact LibDense.matmul_zero_apply D₂ rfl rfl D₂_lhs0 D₂_lhs1 D₂_rhs0 D₂_rhs1 none _ _ p d

/-! ## The body's two stored values are these blocks -/

/-- The value stored to the weights' window. -/
theorem stored_weights (x0 : Vec Ideal S512x128 .f32) (x1 : Vec Ideal S2000x128 .f32) :
    k0_pay1 (k0_pay3 x0 x1) (k0_pay4 x0 x1) (Scalar.ofBits .f32 0x2B8CBCCC#32) = weightsBlock x0 x1 := rfl

/-- The value stored to the window of values read. -/
theorem stored_read (x0 : Vec Ideal S512x128 .f32) (x1 : Vec Ideal S2000x128 .f32) :
    k0_pay2 x1 (k0_pay3 x0 x1) (k0_pay4 x0 x1) (Scalar.ofBits .f32 0x2B8CBCCC#32) = readBlock (weightsBlock x0 x1) x1 := rfl

/-- Entry (p, j) of the stored weights. -/
theorem stored_weights_apply (x0 : Vec Ideal S512x128 .f32) (x1 : Vec Ideal S2000x128 .f32) (p : Fin 512) (j : Fin 2000) :
    k0_pay1 (k0_pay3 x0 x1) (k0_pay4 x0 x1) (Scalar.ofBits .f32 0x2B8CBCCC#32) (ix2 p j)
      = weights (fun d => x0 (ix2 p d)) (fun r d => x1 (ix2 r d)) j := by
  rw [stored_weights, weightsBlock_apply]

/-- Entry (p, d) of the stored values read. -/
theorem stored_read_apply (x0 : Vec Ideal S512x128 .f32) (x1 : Vec Ideal S2000x128 .f32) (p : Fin 512) (d : Fin 128) :
    k0_pay2 x1 (k0_pay3 x0 x1) (k0_pay4 x0 x1) (Scalar.ofBits .f32 0x2B8CBCCC#32) (ix2 p d)
      = readout (fun d => x0 (ix2 p d)) (fun r d => x1 (ix2 r d)) d := by
  rw [stored_read, readBlock_apply]
  simp only [weightsBlock_apply]
  rfl

end Cert.KernelIdeal.RowValue

end
-- ==== Proof.ArraySpec.lean ====
/-
  The two result arrays of the memory read, as functions of the whole query array and the memory.

  Row i of the array of weights is the addressing weights of query row i over the memory rows; row i of the array
  of values read is the weighted sum of the memory rows under those weights.  Entry (i, j) depends on the query
  array through its row i only.
-/
import proofs.«132299_j55894704390271_1_alg».proof.Proof.RowSpec
import Idealize.ShloMosaic.Lib.ValueIdx

noncomputable section

namespace Cert.MemoryRead

open Idealize.ShloMosaic Idealize.ShloMosaic.ValueIdx

/-- The [32768, 2000] array of addressing weights. -/
def weightsArray (A0 : (⟨2, ![32768, 128]⟩ : Shape).Idx → EReal) (A1 : (⟨2, ![2000, 128]⟩ : Shape).Idx → EReal) :
    (⟨2, ![32768, 2000]⟩ : Shape).Idx → EReal :=
  fun i => weights (fun d => A0 (ix2 (⟨(i 0).val, (i 0).isLt⟩ : Fin 32768) d)) (fun r d => A1 (ix2 r d))
    (⟨(i 1).val, (i 1).isLt⟩ : Fin 2000)

/-- The [32768, 128] array of values read. -/
def readArray (A0 : (⟨2, ![32768, 128]⟩ : Shape).Idx → EReal) (A1 : (⟨2, ![2000, 128]⟩ : Shape).Idx → EReal) :
    (⟨2, ![32768, 128]⟩ : Shape).Idx → EReal :=
  fun i => readout (fun d => A0 (ix2 (⟨(i 0).val, (i 0).isLt⟩ : Fin 32768) d)) (fun r d => A1 (ix2 r d))
    (⟨(i 1).val, (i 1).isLt⟩ : Fin 128)

theorem weightsArray_apply (A0 : (⟨2, ![32768, 128]⟩ : Shape).Idx → EReal) (A1 : (⟨2, ![2000, 128]⟩ : Shape).Idx → EReal)
    (i : Fin 32768) (j : Fin 2000) :
    weightsArray A0 A1 (ix2 i j) = weights (fun d => A0 (ix2 i d)) (fun r d => A1 (ix2 r d)) j := rfl

theorem readArray_apply (A0 : (⟨2, ![32768, 128]⟩ : Shape).Idx → EReal) (A1 : (⟨2, ![2000, 128]⟩ : Shape).Idx → EReal)
    (i : Fin 32768) (d : Fin 128) :
    readArray A0 A1 (ix2 i d) = readout (fun d => A0 (ix2 i d)) (fun r d => A1 (ix2 r d)) d := rfl

end Cert.MemoryRead

end
-- ==== Proof.Blocks.lean ====
/-
  From the blocks the kernel writes to its two result arrays.

  Grid point t stages rows 512 t … 512 t + 511 of the query array and the whole memory, and writes back the same
  rows of the two result arrays.  A row of either result depends on the same row of the query array only, so what
  point t writes back is block t of the whole-array function; the 64 blocks tile the rows, hence each result array
  ends holding that function of the argument arrays.
-/
import proofs.«132299_j55894704390271_1_alg».proof.Proof.Gen.KernelIdeal.Value
import proofs.«132299_j55894704390271_1_alg».proof.Proof.KernelRows
import proofs.«132299_j55894704390271_1_alg».proof.Proof.ArraySpec

noncomputable section

namespace Cert.KernelIdeal.ArrayValue

open Cert.KernelIdeal Cert.KernelIdeal.Gen Idealize.ShloMosaic Idealize.ShloMosaic.TcCoe Idealize.SL.Sem
open Idealize.ShloMosaic.ValueIdx Cert.MemoryRead
open Idealize.ShloMosaic.Pipeline (Dat)

variable (m : (ℓ : Loc nD τ sig) → Buf (Elt Ideal) ℓ) (ρ : Dev nD → PrngReg)

theorem offset_zero : (![0, 0] : Fin 2 → Nat) = fun _ => 0 := funext fun a => by fin_cases a <;> rfl

/-- The block indices of the four windows at grid point t: the query block and both result blocks are block row t,
    the memory is its one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- Row p of the query block at point t is row 512 t + p of the query array. -/
theorem queryBlock_apply (c : Dev nD) (t : Fin cfg0.N) (p : Fin 512) (d : Fin 128) (P : Fin 32768)
    (hP : P.val = t.val * 512 + p.val) : iblk m c 0 t (ix2 p d) = V m c main_arg0 (ix2 P d) := by
  obtain ⟨e0, e1, -⟩ := block_indices t
  show V m c main_arg0 (((cfg0.win 0).blk t).view.emb (ix2 p d)) = _
  refine congrArg (V m c main_arg0) (funext fun a => Fin.ext ?_)
  match a with
  | ⟨0, _⟩ => show win0_0.index t (0 : Fin 2) * 512 + 1 * p.val = P.val; rw [e0, hP]; omega
  | ⟨1, _⟩ => show win0_0.index t (1 : Fin 2) * 128 + 1 * d.val = d.val; rw [e1]; omega

/-- The memory block at every point is the memory. -/
theorem memoryBlock_apply (c : Dev nD) (t : Fin cfg0.N) (r : Fin 2000) (d : Fin 128) :
    iblk m c 1 t (ix2 r d) = V m c main_arg1 (ix2 r d) := by
  obtain ⟨-, -, e0, e1, -⟩ := block_indices t
  show V m c main_arg1 (((cfg0.win 1).blk t).view.emb (ix2 r d)) = _
  refine congrArg (V m c main_arg1) (funext fun a => Fin.ext ?_)
  match a with
  | ⟨0, _⟩ => show win0_1.index t (0 : Fin 2) * 2000 + 1 * r.val = r.val; rw [e0]; omega
  | ⟨1, _⟩ => show win0_1.index t (1 : Fin 2) * 128 + 1 * d.val = d.val; rw [e1]; omega

/-! ## The array of weights (output window 3) -/

/-- What point t writes back to the weights' array is block t of the array of addressing weights. -/
theorem flushed_weights (c : Dev nD) (t : Fin cfg0.N) :
    (dats m 0 c).flushed 3 t
      = ((cfg0.win 3).blk t).view.read (Elt Ideal) (weightsArray (V m c main_arg0) (V m c main_arg1)) := by
  rw [Value.flushed3]
  unfold out0_3
  rw [View.canon_unit_zero offset_zero]
  simp only [View.ld_unit_zero (S := S512x128) offset_zero, View.ld_unit_zero (S := S2000x128) offset_zero]
  obtain ⟨-, -, -, -, -, -, e0, e1⟩ := block_indices t
  have ht := point_lt t
  funext y
  obtain ⟨p, q, rfl⟩ : ∃ (p : Fin 512) (q : Fin 2000), y = ix2 p q := ⟨y 0, y 1, eq_ix2 y⟩
  have hemb : ((cfg0.win 3).blk t).view.emb (ix2 p q) = ix2 (⟨t.val * 512 + p.val, by omega⟩ : Fin 32768) q := by
    funext a; apply Fin.ext
    match a with
    | ⟨0, _⟩ => show win0_3.index t (0 : Fin 2) * 512 + 1 * p.val = t.val * 512 + p.val; rw [e0]; omega
    | ⟨1, _⟩ => show win0_3.index t (1 : Fin 2) * 2000 + 1 * q.val = q.val; rw [e1]; omega
  show k0_pay1 (k0_pay3 (iblk m c 0 t) (iblk m c 1 t)) (k0_pay4 (iblk m c 0 t) (iblk m c 1 t)) (Scalar.ofBits .f32 0x2B8CBCCC#32) (ix2 p q)
    = weightsArray (V m c main_arg0) (V m c main_arg1) (((cfg0.win 3).blk t).view.emb (ix2 p q))
  rw [hemb, weightsArray_apply]
  refine (RowValue.stored_weights_apply (iblk m c 0 t) (iblk m c 1 t) p q).trans ?_
  have hq : (fun d => iblk m c 0 t (ix2 p d)) = fun d => V m c main_arg0 (ix2 (⟨t.val * 512 + p.val, by omega⟩ : Fin 32768) d) :=
    funext fun d => queryBlock_apply m c t p d _ rfl
  have hm : (fun r d => iblk m c 1 t (ix2 r d)) = fun r d => V m c main_arg1 (ix2 r d) :=
    funext fun r => funext fun d => memoryBlock_apply m c t r d
  rw [hq, hm]

/-- An index of the weights' array is in point t's block iff each coordinate is in the block's range. -/
theorem mem_weightsBlock (t : Fin cfg0.N) (i : S32768x2000.Idx) :
    i ∈ ((cfg0.win 3).blk t).view.set ↔ ∀ a : Fin 2, win0_3.index t a * S512x2000.size a ≤ (i a).val
      ∧ (i a).val < win0_3.index t a * S512x2000.size a + S512x2000.size a := by
  show i ∈ ((View.whole main_v0_1).slice (win0_3.rect t)).set ↔ _
  rw [View.set_slice_whole, Rect.mem_set_unit]
  exact Iff.rfl

/-- Every index of the weights' array is in the block of the point its row belongs to. -/
theorem cover_weights (i : S32768x2000.Idx) :
    ∃ t : Fin cfg0.N, (cfg0.win 3).flush t = true ∧ i ∈ ((cfg0.win 3).blk t).view.set := by
  have hi0 : (i 0).val < 32768 := (i 0).isLt
  have hi1 : (i 1).val < 2000 := (i 1).isLt
  have hN : (i 0).val / 512 < cfg0.N := lt_of_lt_of_eq (show (i 0).val / 512 < 64 by omega) N_0.symm
  refine ⟨⟨(i 0).val / 512, hN⟩, flush0_3 _, ?_⟩
  rw [mem_weightsBlock]
  obtain ⟨-, -, -, -, -, -, e0, e1⟩ := block_indices ⟨(i 0).val / 512, hN⟩
  intro a
  match a with
  | ⟨0, _⟩ =>
    show win0_3.index ⟨(i 0).val / 512, hN⟩ (0 : Fin 2) * 512 ≤ (i 0).val
      ∧ (i 0).val < win0_3.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, hN⟩ (1 : Fin 2) * 2000 ≤ (i 1).val
      ∧ (i 1).val < win0_3.index ⟨(i 0).val / 512, hN⟩ (1 : Fin 2) * 2000 + 2000
    rw [e1]; omega

/-- The weights' array after the run. -/
theorem final_weights (c : Dev nD) :
    (dats m 0 c).arrAt 3 cfg0.N
      = weightsArray (m ((c : Thread nD τ).loc main_arg0)) (m ((c : Thread nD τ).loc main_arg1)) :=
  (dats m 0 c).arrAt_eq_of_cover 3 (weightsArray (V m c main_arg0) (V m c main_arg1))
    (fun t _ => flushed_weights m c t) cover_weights

/-! ## The array of values read (output window 2) -/

/-- What point t writes back to the array of values read is block t of the whole-array function. -/
theorem flushed_read (c : Dev nD) (t : Fin cfg0.N) :
    (dats m 0 c).flushed 2 t
      = ((cfg0.win 2).blk t).view.read (Elt Ideal) (readArray (V m c main_arg0) (V m c main_arg1)) := by
  rw [Value.flushed2]
  unfold out0_2
  rw [View.canon_unit_zero offset_zero]
  simp only [View.ld_unit_zero (S := S512x128) offset_zero, View.ld_unit_zero (S := S2000x128) offset_zero]
  obtain ⟨-, -, -, -, e0, e1, -⟩ := block_indices t
  have ht := point_lt t
  funext y
  obtain ⟨p, q, rfl⟩ : ∃ (p : Fin 512) (q : Fin 128), y = ix2 p q := ⟨y 0, y 1, eq_ix2 y⟩
  have hemb : ((cfg0.win 2).blk t).view.emb (ix2 p q) = ix2 (⟨t.val * 512 + p.val, by omega⟩ : Fin 32768) q := by
    funext a; apply Fin.ext
    match a with
    | ⟨0, _⟩ => show win0_2.index t (0 : Fin 2) * 512 + 1 * p.val = t.val * 512 + p.val; rw [e0]; omega
    | ⟨1, _⟩ => show win0_2.index t (1 : Fin 2) * 128 + 1 * q.val = q.val; rw [e1]; omega
  show k0_pay2 (iblk m c 1 t) (k0_pay3 (iblk m c 0 t) (iblk m c 1 t)) (k0_pay4 (iblk m c 0 t) (iblk m c 1 t)) (Scalar.ofBits .f32 0x2B8CBCCC#32) (ix2 p q)
    = readArray (V m c main_arg0) (V m c main_arg1) (((cfg0.win 2).blk t).view.emb (ix2 p q))
  rw [hemb, readArray_apply]
  refine (RowValue.stored_read_apply (iblk m c 0 t) (iblk m c 1 t) p q).trans ?_
  have hq : (fun d => iblk m c 0 t (ix2 p d)) = fun d => V m c main_arg0 (ix2 (⟨t.val * 512 + p.val, by omega⟩ : Fin 32768) d) :=
    funext fun d => queryBlock_apply m c t p d _ rfl
  have hm : (fun r d => iblk m c 1 t (ix2 r d)) = fun r d => V m c main_arg1 (ix2 r d) :=
    funext fun r => funext fun d => memoryBlock_apply m c t r d
  rw [hq, hm]

/-- An index of the array of values read is in point t's block iff each coordinate is in the block's range. -/
theorem mem_readBlock (t : Fin cfg0.N) (i : S32768x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v0_0).slice (win0_2.rect t)).set ↔ _
  rw [View.set_slice_whole, Rect.mem_set_unit]
  exact Iff.rfl

/-- Every index of the array of values read is in the block of the point its row belongs to. -/
theorem cover_read (i : S32768x128.Idx) :
    ∃ t : Fin cfg0.N, (cfg0.win 2).flush t = true ∧ i ∈ ((cfg0.win 2).blk t).view.set := by
  have hi0 : (i 0).val < 32768 := (i 0).isLt
  have hi1 : (i 1).val < 128 := (i 1).isLt
  have hN : (i 0).val / 512 < cfg0.N := lt_of_lt_of_eq (show (i 0).val / 512 < 64 by omega) N_0.symm
  refine ⟨⟨(i 0).val / 512, hN⟩, flush0_2 _, ?_⟩
  rw [mem_readBlock]
  obtain ⟨-, -, -, -, e0, e1, -⟩ := block_indices ⟨(i 0).val / 512, hN⟩
  intro a
  match a with
  | ⟨0, _⟩ =>
    show win0_2.index ⟨(i 0).val / 512, hN⟩ (0 : Fin 2) * 512 ≤ (i 0).val
      ∧ (i 0).val < win0_2.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_2.index ⟨(i 0).val / 512, hN⟩ (1 : Fin 2) * 128 ≤ (i 1).val
      ∧ (i 1).val < win0_2.index ⟨(i 0).val / 512, hN⟩ (1 : Fin 2) * 128 + 128
    rw [e1]; omega

/-- The array of values read after the run. -/
theorem final_read (c : Dev nD) :
    (dats m 0 c).arrAt 2 cfg0.N
      = readArray (m ((c : Thread nD τ).loc main_arg0)) (m ((c : Thread nD τ).loc main_arg1)) :=
  (dats m 0 c).arrAt_eq_of_cover 2 (readArray (V m c main_arg0) (V m c main_arg1))
    (fun t _ => flushed_read m c t) cover_read

/-! ## The run, read -/

/-- Every weakly fair execution of the kernel's program ends with the two result arrays at the memory read of the
    argument arrays, the arguments unchanged. -/
theorem run : θ_run defs (onTc (τ := τ) (main (F := Ideal))) ⟨m, fun _ => 0, ρ⟩ fun r => ∀ c : Dev nD,
      r.2.mem ((c : Thread nD τ).loc main_v0_0)
        = readArray (m ((c : Thread nD τ).loc main_arg0)) (m ((c : Thread nD τ).loc main_arg1))
      ∧ r.2.mem ((c : Thread nD τ).loc main_v0_1)
        = weightsArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_read m c), (h c).2.1.trans (final_weights m c),
      (h c).2.2.1, (h c).2.2.2⟩)
    (Value.run_blocks m ρ)

end Cert.KernelIdeal.ArrayValue

end
-- ==== Proof.ReferenceRows.lean ====
/-
  What the reference computes, row by row.

  The reference scales the rows of the query array and of the memory to unit length, takes their inner products,
  applies a softmax along each row (shifted by the row's maximum, which it bounds below by minus infinity once
  more), shrinks every weight, divides each row by its absolute sum and multiplies the weights with the memory.
  Read at row i, each of these arrays depends on row i of the query array only, and is the corresponding function
  of `Cert.MemoryRead` applied to that row.  The host's sums start from the zero word, which adds nothing.
-/
import proofs.«132299_j55894704390271_1_alg».proof.Proof.Gen.ReferenceIdeal.Read
import proofs.«132299_j55894704390271_1_alg».proof.Proof.RowSpec
import proofs.«132299_j55894704390271_1_alg».proof.Proof.LibLayout
import proofs.«132299_j55894704390271_1_alg».proof.Proof.LibRowReduce
import Idealize.ShloMosaic.Lib.ValueIdx
import Idealize.ShloMosaic.PureOps.Ideal.Laws

noncomputable section

open scoped BigOperators

namespace Cert.ReferenceIdeal.RowValue

open Cert.ReferenceIdeal Cert.ReferenceIdeal.Gen Cert.ReferenceIdeal.Read Idealize.ShloMosaic Idealize.ShloMosaic.ValueIdx
open Cert.MemoryRead

variable (x0 : (⟨S32768x128, .f32⟩ : BufTy).Contents (Elt Ideal)) (x1 : (⟨S2000x128, .f32⟩ : BufTy).Contents (Elt Ideal))

/-- A length-a array made a column and the column repeated along each row reads, at (i, j), the array's entry i. -/
theorem spread_col_apply {α : Type} {a b : ℕ} (w : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h2 (broadcastInDim ⟨2, ![a, 1]⟩ (![0] : Fin 1 → Fin 2) h1 w) (ix2 i j)
      = w (ix1 i) :=
  (LibLayout.broadcastInDim_a1_ab_apply _ h2 i j).trans (LibLayout.broadcastInDim_a_a1_apply w h1 i 0)

/-! ## Rows scaled to unit length -/

/-- The sum of the squares of row i of the query array, as the reference's column holds it. -/
theorem querySquares_apply (i : Fin 32768) :
    val_main_v2 (F := Ideal) x0 (ix2 i (0 : Fin 1)) = ∑ k : Fin 128, x0 (ix2 i k) * x0 (ix2 i k) := by
  unfold val_main_v2
  refine (LibLayout.broadcastInDim_a_a1_apply _ bcast_S32768_S32768x1_0 i 0).trans ?_
  unfold val_main_v1
  refine (LibRowReduce.hostRowSum_apply _ _ reducesTo_S32768x128_S32768_d1 (by decide) h_S_ i).trans ?_
  rw [val_main_cst_apply, Ideal.ofBits_def, Ideal.ofBits_zero_f32, zero_add]
  simp only [val_main_v0_apply, Ideal.mulf_def]

/-- Row i of the scaled query array is the unit row of row i. -/
theorem unitQuery_apply (i : Fin 32768) (d : Fin 128) :
    val_main_v7 (F := Ideal) x0 (ix2 i d) = unitRow (fun k => x0 (ix2 i k)) d := by
  rw [val_main_v7_apply, Ideal.hostDivf_def]
  have e : val_main_v6 (F := Ideal) x0 (ix2 i d)
      = max (Ideal.sqrt (∑ k : Fin 128, x0 (ix2 i k) * x0 (ix2 i k))) floor := by
    unfold val_main_v6
    refine (LibLayout.broadcastInDim_a1_ab_apply _ bcast_S32768x1_S32768x128_0_1 i d).trans ?_
    rw [val_main_v5_apply, Ideal.maximumf_def, val_main_v3_apply, Ideal.hostUnary_sqrt_def, val_main_v4_apply,
      val_main_cst_0_apply, Ideal.ofBits_def, querySquares_apply]
  rw [e]
  unfold unitRow
  rfl

/-- The sum of the squares of row r of the memory, as the reference's column holds it. -/
theorem memorySquares_apply (r : Fin 2000) :
    val_main_v10 (F := Ideal) x1 (ix2 r (0 : Fin 1)) = ∑ k : Fin 128, x1 (ix2 r k) * x1 (ix2 r k) := by
  unfold val_main_v10
  refine (LibLayout.broadcastInDim_a_a1_apply _ bcast_S2000_S2000x1_0 r 0).trans ?_
  unfold val_main_v9
  refine (LibRowReduce.hostRowSum_apply _ _ reducesTo_S2000x128_S2000_d1 (by decide) h_S_ r).trans ?_
  rw [val_main_cst_1_apply, Ideal.ofBits_def, Ideal.ofBits_zero_f32, zero_add]
  simp only [val_main_v8_apply, Ideal.mulf_def]

/-- Row r of the scaled memory is the unit row of row r. -/
theorem unitMemory_apply (r : Fin 2000) (d : Fin 128) :
    val_main_v15 (F := Ideal) x1 (ix2 r d) = unitRow (fun k => x1 (ix2 r k)) d := by
  rw [val_main_v15_apply, Ideal.hostDivf_def]
  have e : val_main_v14 (F := Ideal) x1 (ix2 r d)
      = max (Ideal.sqrt (∑ k : Fin 128, x1 (ix2 r k) * x1 (ix2 r k))) floor := by
    unfold val_main_v14
    refine (LibLayout.broadcastInDim_a1_ab_apply _ bcast_S2000x1_S2000x128_0_1 r d).trans ?_
    rw [val_main_v13_apply, Ideal.maximumf_def, val_main_v11_apply, Ideal.hostUnary_sqrt_def, val_main_v12_apply,
      val_main_cst_2_apply, Ideal.ofBits_def, memorySquares_apply]
  rw [e]
  unfold unitRow
  rfl

/-! ## The scores and the softmax -/

/-- Entry (i, j) of the scores is the score of query row i against memory row j. -/
theorem scores_apply (i : Fin 32768) (j : Fin 2000) :
    val_main_v16 (F := Ideal) x0 x1 (ix2 i j) = scores (fun d => x0 (ix2 i d)) (fun r d => x1 (ix2 r d)) j := by
  rw [val_main_v16_apply]
  unfold scores
  refine Finset.sum_congr rfl fun k _ => ?_
  have el : lidx_main_v16 (ix2 i j) k = ix2 i k := funext fun a => by match a with | ⟨0, _⟩ => rfl | ⟨1, _⟩ => rfl
  have er : ridx_main_v16 (ix2 i j) k = ix2 j k := funext fun a => by match a with | ⟨0, _⟩ => rfl | ⟨1, _⟩ => rfl
  rw [el, er, unitQuery_apply, unitMemory_apply]

/-- The maximum of row i of the scores, bounded below by minus infinity once more. -/
theorem rowMax_apply (i : Fin 32768) :
    val_main_v19 (F := Ideal) x0 x1 (ix1 i) = rowMax (scores (fun d => x0 (ix2 i d)) (fun r d => x1 (ix2 r d))) := by
  rw [val_main_v19_apply, Ideal.maximumf_def, val_main_v18_apply, val_main_cst_4_apply, Ideal.ofBits_def,
    LibRowReduce.max_negInf_left]
  unfold val_main_v17
  refine (LibRowReduce.hostRowMax_apply _ _ reducesTo_S32768x2000_S32768_d1 (by decide) h_S_ i).trans ?_
  rw [val_main_cst_3_apply, Ideal.ofBits_def]
  simp only [scores_apply]
  rfl

/-- Entry (i, j) of the shifted exponentials. -/
theorem shiftExp_apply (i : Fin 32768) (j : Fin 2000) :
    val_main_v23 (F := Ideal) x0 x1 (ix2 i j)
      = Ideal.exp (scores (fun d => x0 (ix2 i d)) (fun r d => x1 (ix2 r d)) j
          - rowMax (scores (fun d => x0 (ix2 i d)) (fun r d => x1 (ix2 r d)))) := by
  rw [val_main_v23_apply, Ideal.hostUnary_exp_def, val_main_v22_apply, Ideal.subf_def]
  have e : val_main_v21 (F := Ideal) x0 x1 (ix2 i j) = val_main_v19 (F := Ideal) x0 x1 (ix1 i) := by
    unfold val_main_v21 val_main_v20
    exact spread_col_apply _ bcast_S32768_S32768x1_0 bcast_S32768x1_S32768x2000_0_1 i j
  rw [e, scores_apply, rowMax_apply]

/-- Row i of the softmax array is the softmax of row i of the scores. -/
theorem softmax_apply (i : Fin 32768) (j : Fin 2000) :
    val_main_v27 (F := Ideal) x0 x1 (ix2 i j) = softmax (scores (fun d => x0 (ix2 i d)) (fun r d => x1 (ix2 r d))) j := by
  rw [val_main_v27_apply, Ideal.hostDivf_def]
  have e : val_main_v26 (F := Ideal) x0 x1 (ix2 i j)
      = ∑ k : Fin 2000, val_main_v23 (F := Ideal) x0 x1 (ix2 i k) := by
    unfold val_main_v26 val_main_v25
    refine (spread_col_apply _ bcast_S32768_S32768x1_0 bcast_S32768x1_S32768x2000_0_1 i j).trans ?_
    unfold val_main_v24
    refine (LibRowReduce.hostRowSum_apply _ _ reducesTo_S32768x2000_S32768_d1 (by decide) h_S_ i).trans ?_
    rw [val_main_cst_5_apply, Ideal.ofBits_def, Ideal.ofBits_zero_f32, zero_add]
  rw [e]
  simp only [shiftExp_apply]
  unfold softmax
  rfl

/-! ## The shrink, the division by the absolute sum, and the product with the memory -/

/-- Every entry of the shrunk array is the shrink of the softmax entry. -/
theorem shrink_apply (i : S32768x2000.Idx) :
    val_main_v35 (F := Ideal) x0 x1 i = shrink (val_main_v27 (F := Ideal) x0 x1 i) := by
  simp only [val_main_v35_apply, val_main_v31_apply, val_main_v30_apply, val_main_v29_apply, val_main_v34_apply,
    val_main_v32_apply, val_main_v28_apply, val_main_cst_6_apply, val_main_call0_v0_apply, val_main_call0_cst_apply,
    val_main_v33_apply, val_main_cst_7_apply, Ideal.hostDivf_def, Ideal.mulf_def, Ideal.maximumf_def, Ideal.subf_def,
    Ideal.addf_def, Ideal.hostAbsf_def, Ideal.absf_def, Ideal.ofBits_def]
  unfold shrink
  rfl

/-- Row i of the weights array is the weights of query row i. -/
theorem weights_apply (i : Fin 32768) (j : Fin 2000) :
    val_main_v42 (F := Ideal) x0 x1 (ix2 i j) = weights (fun d => x0 (ix2 i d)) (fun r d => x1 (ix2 r d)) j := by
  rw [val_main_v42_apply, Ideal.hostDivf_def]
  have e3 : val_main_v38 (F := Ideal) x0 x1 (ix2 i (0 : Fin 1))
      = ∑ k : Fin 2000, max (val_main_v35 (F := Ideal) x0 x1 (ix2 i k)) (-(val_main_v35 (F := Ideal) x0 x1 (ix2 i k))) := by
    unfold val_main_v38
    refine (LibLayout.broadcastInDim_a_a1_apply _ bcast_S32768_S32768x1_0 i 0).trans ?_
    unfold val_main_v37
    refine (LibRowReduce.hostRowSum_apply _ _ reducesTo_S32768x2000_S32768_d1 (by decide) h_S_ i).trans ?_
    rw [val_main_cst_8_apply, Ideal.ofBits_def, Ideal.ofBits_zero_f32, zero_add]
    simp only [val_main_v36_apply, Ideal.hostAbsf_def, Ideal.absf_def]
  have e : val_main_v41 (F := Ideal) x0 x1 (ix2 i j)
      = max (∑ k : Fin 2000, max (val_main_v35 (F := Ideal) x0 x1 (ix2 i k)) (-(val_main_v35 (F := Ideal) x0 x1 (ix2 i k)))) floor := by
    unfold val_main_v41
    refine (LibLayout.broadcastInDim_a1_ab_apply _ bcast_S32768x1_S32768x2000_0_1 i j).trans ?_
    rw [val_main_v40_apply, Ideal.maximumf_def, val_main_v39_apply, val_main_cst_9_apply, Ideal.ofBits_def, e3]
  rw [e]
  simp only [shrink_apply, softmax_apply]
  unfold weights l1Unit
  rfl

/-- Row i of the array of values read is the value read by query row i. -/
theorem readout_apply (i : Fin 32768) (d : Fin 128) :
    val_main_v43 (F := Ideal) x0 x1 (ix2 i d) = readout (fun d => x0 (ix2 i d)) (fun r d => x1 (ix2 r d)) d := by
  rw [val_main_v43_apply]
  unfold readout
  refine Finset.sum_congr rfl fun k _ => ?_
  have el : lidx_main_v43 (ix2 i d) k = ix2 i k := funext fun a => by match a with | ⟨0, _⟩ => rfl | ⟨1, _⟩ => rfl
  have er : ridx_main_v43 (ix2 i d) k = ix2 k d := funext fun a => by match a with | ⟨0, _⟩ => rfl | ⟨1, _⟩ => rfl
  rw [el, er, weights_apply]

end Cert.ReferenceIdeal.RowValue

end
-- ==== Proof.ReferenceArrays.lean ====
/-
  The reference's two results are the arrays of the memory read: each entry is read at its row.
-/
import proofs.«132299_j55894704390271_1_alg».proof.Proof.ReferenceRows
import proofs.«132299_j55894704390271_1_alg».proof.Proof.ArraySpec

noncomputable section

namespace Cert.ReferenceIdeal.RowValue

open Cert.ReferenceIdeal Cert.ReferenceIdeal.Gen Cert.ReferenceIdeal.Read Idealize.ShloMosaic Idealize.ShloMosaic.ValueIdx
open Cert.MemoryRead

variable (x0 : (⟨S32768x128, .f32⟩ : BufTy).Contents (Elt Ideal)) (x1 : (⟨S2000x128, .f32⟩ : BufTy).Contents (Elt Ideal))

/-- The reference's array of weights is the array of addressing weights of its arguments. -/
theorem weightsArray_eq : val_main_v42 (F := Ideal) x0 x1 = weightsArray x0 x1 := by
  funext i
  obtain ⟨p, q, rfl⟩ : ∃ (p : Fin 32768) (q : Fin 2000), i = ix2 p q := ⟨i 0, i 1, eq_ix2 i⟩
  rw [weights_apply, weightsArray_apply]

/-- The reference's array of values read is the array of values read of its arguments. -/
theorem readArray_eq : val_main_v43 (F := Ideal) x0 x1 = readArray x0 x1 := by
  funext i
  obtain ⟨p, q, rfl⟩ : ∃ (p : Fin 32768) (q : Fin 128), i = ix2 p q := ⟨i 0, i 1, eq_ix2 i⟩
  rw [readout_apply, readArray_apply]

end Cert.ReferenceIdeal.RowValue

end
-- ==== Proof.lean ====
/-
  The kernel reads a memory of 2000 rows of width 128 with 32768 query rows, 512 rows per grid point: rows scaled to
  unit length, scores as inner products, a softmax along each row, a shrink of every weight, a division of each row
  by its absolute sum, and the product of the weights with the memory; the reference does the same on whole arrays.
  Over the extended reals both programs end with the same two arrays: every entry of either result is a function
  of ONE query row and the memory (Proof/RowSpec.lean, Proof/ArraySpec.lean), the kernel's blocks are the rows of that
  function 512 at a time (Proof/KernelRows.lean, Proof/Blocks.lean), and the reference's arrays are that function row
  by row (Proof/ReferenceRows.lean, Proof/ReferenceArrays.lean).  The two sides differ only in how sums and maxima
  are arranged — a matrix unit against a host contraction, a lane reduction against a host reduction, one more
  maximum with minus infinity on the host — and none of these changes a value, so the inputs' finiteness is not used.
  The three frames are the generated ones (the reference's is its run with the results dropped); the idealization
  rewrote nothing, so there is nothing to preserve.
-/
import proofs.«132299_j55894704390271_1_alg».proof.Defs
import proofs.«132299_j55894704390271_1_alg».proof.Proof.Gen.Kernel
import proofs.«132299_j55894704390271_1_alg».proof.Proof.Gen.Kernel.Skeleton
import proofs.«132299_j55894704390271_1_alg».proof.Proof.Gen.Kernel.Launch
import proofs.«132299_j55894704390271_1_alg».proof.Proof.Gen.Kernel.Points
import proofs.«132299_j55894704390271_1_alg».proof.Proof.Gen.Kernel.Frame
import proofs.«132299_j55894704390271_1_alg».proof.Proof.Gen.KernelIdeal
import proofs.«132299_j55894704390271_1_alg».proof.Proof.Gen.KernelIdeal.Skeleton
import proofs.«132299_j55894704390271_1_alg».proof.Proof.Gen.KernelIdeal.Launch
import proofs.«132299_j55894704390271_1_alg».proof.Proof.Gen.KernelIdeal.Points
import proofs.«132299_j55894704390271_1_alg».proof.Proof.Gen.KernelIdeal.Frame
import proofs.«132299_j55894704390271_1_alg».proof.Proof.Gen.ReferenceIdeal
import proofs.«132299_j55894704390271_1_alg».proof.Proof.Gen.Pre_finite_inputs
import proofs.«132299_j55894704390271_1_alg».proof.Proof.Gen.KernelIdeal.Value
import proofs.«132299_j55894704390271_1_alg».proof.Proof.Gen.ReferenceIdeal.Run
import proofs.«132299_j55894704390271_1_alg».proof.Proof.Gen.ReferenceIdeal.Read
import proofs.«132299_j55894704390271_1_alg».proof.Proof.Blocks
import proofs.«132299_j55894704390271_1_alg».proof.Proof.ReferenceArrays
import Idealize.ShloMosaic.Adequacy
import Idealize.ShloMosaic.Init

noncomputable section

namespace Cert.Proof

open Idealize.ShloMosaic Idealize.SL.Sem Cert.Kernel

/-- The kernel's program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the two results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- From memories agreeing on the query array and the memory, both programs end with the array of values read and
    the array of addressing weights of those arguments. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v43_eq, (hagree c).1, (hagree c).2]
    exact Cert.ReferenceIdeal.RowValue.readArray_eq _ _
  · rw [Cert.ReferenceIdeal.Read.val_main_v42_eq, (hagree c).1, (hagree c).2]
    exact Cert.ReferenceIdeal.RowValue.weightsArray_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
